-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S1048576x64 .f32) (main_arg1 : FVec F S64x32 .f32) (main_arg2 : FVec F S32 .f32) (main_arg3 : FVec F S32x16 .f32) (main_arg4 : FVec F S16 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_v13 main_v16
-- ==== Kernel.lean ====
abbrev S1048576x64 : Shape := ⟨2, ![1048576, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S1x32 : Shape := ⟨2, ![1, 32]⟩
abbrev S1x16 : Shape := ⟨2, ![1, 16]⟩
abbrev S1048576x16 : Shape := ⟨2, ![1048576, 16]⟩
abbrev S32768x64 : Shape := ⟨2, ![32768, 64]⟩
abbrev S32768x16 : Shape := ⟨2, ![32768, 16]⟩
abbrev S32768x32 : Shape := ⟨2, ![32768, 32]⟩

abbrev nBuf : Space → Nat
  | .hbm => 8
  | .vmem => 8
  | .smem => 0
  | _ => 0

abbrev bufTy : (tb : Table) → Fin (tcTables nBuf tb) → BufTy
  | .hbm, ⟨0, _⟩ => ⟨S1048576x64, .f32⟩
  | .hbm, ⟨1, _⟩ => ⟨S64x32, .f32⟩
  | .hbm, ⟨2, _⟩ => ⟨S32, .f32⟩
  | .hbm, ⟨3, _⟩ => ⟨S32x16, .f32⟩
  | .hbm, ⟨4, _⟩ => ⟨S16, .f32⟩
  | .hbm, ⟨5, _⟩ => ⟨S1x32, .f32⟩
  | .hbm, ⟨6, _⟩ => ⟨S1x16, .f32⟩
  | .hbm, ⟨7, _⟩ => ⟨S1048576x16, .f32⟩
  | .local _ .vmem, ⟨0, _⟩ => ⟨S32768x64, .f32⟩
  | .local _ .vmem, ⟨1, _⟩ => ⟨S32768x64, .f32⟩
  | .local _ .vmem, ⟨2, _⟩ => ⟨S64x32, .f32⟩
  | .local _ .vmem, ⟨3, _⟩ => ⟨S1x32, .f32⟩
  | .local _ .vmem, ⟨4, _⟩ => ⟨S32x16, .f32⟩
  | .local _ .vmem, ⟨5, _⟩ => ⟨S1x16, .f32⟩
  | .local _ .vmem, ⟨6, _⟩ => ⟨S32768x16, .f32⟩
  | .local _ .vmem, ⟨7, _⟩ => ⟨S32768x16, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32768x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32768x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32_S1x32 : S32.ShapeCasts S1x32
  shapeCasts_S16_S1x16 : S16.ShapeCasts S1x16
  inb_S32768x64_S32768x64_0_0 : ∀ a, (![0, 0] : Fin 2 → Nat) a + S32768x64.size a ≤ S32768x64.size a
  h_S32768x64 : 0 < S32768x64.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S32768x32 : S1x32.Broadcasts S32768x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S32768x16 : S1x16.Broadcasts S32768x16
  inb_S32768x16_S32768x16_0_0 : ∀ a, (![0, 0] : Fin 2 → Nat) a + S32768x16.size a ≤ S32768x16.size a
  h_S32768x16 : 0 < S32768x16.numel
  dot_S32768x64_S64x32_S32768x32_1_0_0_1_n_n_wf : DotDims.WF S32768x64 S64x32 S32768x32 [1] [0] [0] [1] [] []
  dot_S32768x32_S32x16_S32768x16_1_0_0_1_n_n_wf : DotDims.WF S32768x32 S32x16 S32768x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x64.size a ≤ S1048576x64.size a
  hwx0_0 : ∀ i : grid0.Coords, EltTy.bits .f32 = 32 ∨ (Rect.block (s := S1048576x64) S32768x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32768x16.size a ≤ S1048576x16.size a
  hwx0_5 : ∀ i : grid0.Coords, EltTy.bits .f32 = 32 ∨ (Rect.block (s := S1048576x16) S32768x16.size (cc0_transform_5 i) (hinb0_5 i)).WholeWords (EltTy.packing .f32)

variable [Facts₀]

def dot_S32768x64_S64x32_S32768x32_1_0_0_1_n_n : DotDims S32768x64 S64x32 S32768x32 where
  lhsContracting := [1]
  rhsContracting := [0]
  lhsNonContracting := [0]
  rhsNonContracting := [1]
  lhsBatch := []
  rhsBatch := []
  wf := dot_S32768x64_S64x32_S32768x32_1_0_0_1_n_n_wf
def dot_S32768x32_S32x16_S32768x16_1_0_0_1_n_n : DotDims S32768x32 S32x16 S32768x16 where
  lhsContracting := [1]
  rhsContracting := [0]
  lhsNonContracting := [0]
  rhsNonContracting := [1]
  lhsBatch := []
  rhsBatch := []
  wf := dot_S32768x32_S32x16_S32768x16_1_0_0_1_n_n_wf

abbrev win0_0 : Pipeline.Window sig grid0 :=
  Pipeline.Window.ofSpec (Memref.whole main_arg0) S32768x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S32768x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S1048576x32 : Shape := ⟨2, ![1048576, 32]⟩
abbrev S1x32 : Shape := ⟨2, ![1, 32]⟩
abbrev S_ : Shape := ⟨0, ![]⟩
abbrev S1048576x16 : Shape := ⟨2, ![1048576, 16]⟩
abbrev S1x16 : Shape := ⟨2, ![1, 16]⟩

abbrev nBuf : Space → Nat
  | .hbm => 16
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S64x32, .f32⟩
  | .hbm, ⟨2, _⟩ => ⟨S32, .f32⟩
  | .hbm, ⟨3, _⟩ => ⟨S32x16, .f32⟩
  | .hbm, ⟨4, _⟩ => ⟨S16, .f32⟩
  | .hbm, ⟨5, _⟩ => ⟨S1048576x32, .f32⟩
  | .hbm, ⟨6, _⟩ => ⟨S1x32, .f32⟩
  | .hbm, ⟨7, _⟩ => ⟨S1048576x32, .f32⟩
  | .hbm, ⟨8, _⟩ => ⟨S1048576x32, .f32⟩
  | .hbm, ⟨9, _⟩ => ⟨S_, .f32⟩
  | .hbm, ⟨10, _⟩ => ⟨S1048576x32, .f32⟩
  | .hbm, ⟨11, _⟩ => ⟨S1048576x32, .f32⟩
  | .hbm, ⟨12, _⟩ => ⟨S1048576x16, .f32⟩
  | .hbm, ⟨13, _⟩ => ⟨S1x16, .f32⟩
  | .hbm, ⟨14, _⟩ => ⟨S1048576x16, .f32⟩
  | .hbm, ⟨15, _⟩ => ⟨S1048576x16, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  bcast_S_S1048576x32 : S_.BroadcastsInDim S1048576x32 (![] : Fin 0 → Fin S1048576x32.rank)
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  dot_S1048576x64_S64x32_S1048576x32_1_0_0_1_n_n_wf : DotDims.WF S1048576x64 S64x32 S1048576x32 [1] [0] [0] [1] [] []
  dot_S1048576x32_S32x16_S1048576x16_1_0_0_1_n_n_wf : DotDims.WF S1048576x32 S32x16 S1048576x16 [1] [0] [0] [1] [] []

variable [Facts₀]

def dot_S1048576x64_S64x32_S1048576x32_1_0_0_1_n_n : DotDims S1048576x64 S64x32 S1048576x32 where
  lhsContracting := [1]
  rhsContracting := [0]
  lhsNonContracting := [0]
  rhsNonContracting := [1]
  lhsBatch := []
  rhsBatch := []
  wf := dot_S1048576x64_S64x32_S1048576x32_1_0_0_1_n_n_wf
def dot_S1048576x32_S32x16_S1048576x16_1_0_0_1_n_n : DotDims S1048576x32 S32x16 S1048576x16 where
  lhsContracting := [1]
  rhsContracting := [0]
  lhsNonContracting := [0]
  rhsNonContracting := [1]
  lhsBatch := []
  rhsBatch := []
  wf := dot_S1048576x32_S32x16_S1048576x16_1_0_0_1_n_n_wf

class Facts : Prop extends Facts₀ where

variable [Facts]
-- ==== Proof.Mlp.lean ====
/-
  The function both programs compute, over the extended reals: a two-layer perceptron applied to every row of the
  input. Row `p` of the `[R, 64]` input meets the `[64, 32]` first weight matrix; the first bias is added and the sum
  is cut off below at the zero word (the hidden layer, 32 units); the hidden row meets the `[32, 16]` second weight
  matrix and the second bias is added (16 outputs). Every sum is a plain finite sum over the contracted axis, so no
  finiteness is needed to compare two programs that both compute exactly this: the extended reals form a commutative
  additive monoid, and nothing is regrouped or distributed.
  The number of rows `R` is a parameter: the same definition reads a block of rows and the whole array, and an
  output entry depends on its own row of the input only (`unit_congr`).
-/
import Idealize.ShloMosaic.PureOps.Ideal
import Idealize.ShloMosaic.Lib.ValueIdx

noncomputable section

open scoped BigOperators

namespace Cert.Mlp

open Idealize.ShloMosaic Idealize.ShloMosaic.ValueIdx

/-- Hidden unit `k` of row `p`: the inner product of the row with column `k` of the first weight matrix, plus the
    first bias at `k`, cut off below at the zero word. -/
def hidden {R : ℕ} (x : FVec Ideal ⟨2, ![R, 64]⟩ .f32) (w1 : FVec Ideal ⟨2, ![64, 32]⟩ .f32)
    (b1 : FVec Ideal ⟨1, ![32]⟩ .f32) (p : Fin R) (k : Fin 32) : EReal :=
  max ((∑ j : Fin 64, x (ix2 p j) * w1 (ix2 j k)) + b1 (ix1 k)) (Ideal.ofBits .f32 0x00000000#32)

/-- Output unit `q` of row `p`: the inner product of the hidden row with column `q` of the second weight matrix,
    plus the second bias at `q`. -/
def unit {R : ℕ} (x : FVec Ideal ⟨2, ![R, 64]⟩ .f32) (w1 : FVec Ideal ⟨2, ![64, 32]⟩ .f32)
    (b1 : FVec Ideal ⟨1, ![32]⟩ .f32) (w2 : FVec Ideal ⟨2, ![32, 16]⟩ .f32) (b2 : FVec Ideal ⟨1, ![16]⟩ .f32)
    (p : Fin R) (q : Fin 16) : EReal :=
  (∑ k : Fin 32, hidden x w1 b1 p k * w2 (ix2 k q)) + b2 (ix1 q)

/-- The whole `[R, 16]` result, entry by entry. -/
def net {R : ℕ} (x : FVec Ideal ⟨2, ![R, 64]⟩ .f32) (w1 : FVec Ideal ⟨2, ![64, 32]⟩ .f32)
    (b1 : FVec Ideal ⟨1, ![32]⟩ .f32) (w2 : FVec Ideal ⟨2, ![32, 16]⟩ .f32) (b2 : FVec Ideal ⟨1, ![16]⟩ .f32) :
    FVec Ideal ⟨2, ![R, 16]⟩ .f32 :=
  fun i => unit x w1 b1 w2 b2 (i 0) (i 1)

/-- The result at the entry with coordinates `(p, q)`. -/
theorem net_ix2 {R : ℕ} (x : FVec Ideal ⟨2, ![R, 64]⟩ .f32) (w1 : FVec Ideal ⟨2, ![64, 32]⟩ .f32)
    (b1 : FVec Ideal ⟨1, ![32]⟩ .f32) (w2 : FVec Ideal ⟨2, ![32, 16]⟩ .f32) (b2 : FVec Ideal ⟨1, ![16]⟩ .f32)
    (p : Fin R) (q : Fin 16) : net x w1 b1 w2 b2 (ix2 p q) = unit x w1 b1 w2 b2 p q := rfl

/-- An output entry depends on its own row of the input only: two inputs, of any two heights, that agree on row `p`
    of the one and row `p'` of the other give the same outputs there. -/
theorem unit_congr {R R' : ℕ} (x : FVec Ideal ⟨2, ![R, 64]⟩ .f32) (x' : FVec Ideal ⟨2, ![R', 64]⟩ .f32)
    (w1 : FVec Ideal ⟨2, ![64, 32]⟩ .f32) (b1 : FVec Ideal ⟨1, ![32]⟩ .f32) (w2 : FVec Ideal ⟨2, ![32, 16]⟩ .f32)
    (b2 : FVec Ideal ⟨1, ![16]⟩ .f32) (p : Fin R) (p' : Fin R') (h : ∀ j : Fin 64, x (ix2 p j) = x' (ix2 p' j))
    (q : Fin 16) : unit x w1 b1 w2 b2 p q = unit x' w1 b1 w2 b2 p' q := by
  unfold unit hidden
  simp only [h]

end Cert.Mlp

end
-- ==== Proof.LibContract0.lean ====
/-
  A matrix product that contracts the FIRST axis of both operands, over the extended reals and over arbitrary extents:
  for an `[K, R]` array `g` and an `[K, N]` array `h` the entry `(p, q)` of `gᵀ · h` is `∑ s, g s p · h s q`. Beside it
  the product that contracts the left operand's last axis against the right operand's first, `∑ k, x p k · w k q`, for
  operands of any two float formats (over the extended reals a format is only a label).
-/
import Idealize.ShloMosaic.Lib.Pipeline.Value
import Idealize.ShloMosaic.Lib.ValueIdx
import Idealize.ShloMosaic.Lib.ValueLayout
import Idealize.ShloMosaic.PureOps.Ideal.Laws

noncomputable section

namespace Cert.Contract0

open Idealize.ShloMosaic Idealize.ShloMosaic.ValueIdx

/-- A matrix product into a zero accumulator that contracts axis 0 of both operands, read at `(p, q)`: the sum over
    `s` of `g s p · h s q`. The four hypotheses say which operand coordinates the dimension numbers pick. -/
theorem matmul_cols {K R N : ℕ} {φ₁ φ₂ : FTy} (d : DotDims ⟨2, ![K, R]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (q ⟨0, by omega⟩).val)
    (hl1 : ∀ (j : (⟨2, ![R, N]⟩ : Shape).Idx) (q : d.contr.Idx), (d.lhsIdx j q 1).val = (j 0).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (g : FVec Ideal ⟨2, ![K, R]⟩ φ₁) (h : FVec Ideal ⟨2, ![K, N]⟩ φ₂) (p : Fin R) (q : Fin N) :
    matmul d none g h (constant (F := Ideal) ⟨2, ![R, N]⟩ .f32 0x00000000#32) (ix2 p q) = ∑ s : Fin K, g (ix2 s p) * h (ix2 s q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (hl0 _ _).trans hk
    | ⟨1, _⟩ => exact hl1 _ _)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- A matrix product into a zero accumulator, rows times columns with one contracted axis, read at `(p, q)`: the sum
    over `k` of `x p k · w k q`, for operands of any two formats. -/
theorem matmul_rows {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ φ₁) (w : FVec Ideal ⟨2, ![K, N]⟩ φ₂) (p : Fin R) (q : Fin N) :
    matmul d none x w (constant (F := Ideal) ⟨2, ![R, N]⟩ .f32 0x00000000#32) (ix2 p q) = ∑ k : Fin K, x (ix2 p k) * w (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Contract0

end
-- ==== Proof.Body.lean ====
/-
  What one run of the kernel body stores, read at an entry. The body loads a block of 32768 rows of the input, the two
  weight matrices and the two bias rows (each bias as a `[1, n]` array), and stores one `[32768, 16]` value: the first
  matrix product into a zero accumulator (its operands relabelled to a narrower format, which over the extended reals
  changes nothing), the first bias row repeated down the rows and added, the maximum with the zero splat, the second
  matrix product into a zero accumulator, the second bias row added. At the entry `(p, q)` that is the perceptron's
  output unit `q` of row `p` of the block.
-/
import proofs.«133948_j60601988546682_1_alg».proof.Proof.Gen.KernelIdeal.Skeleton
import proofs.«133948_j60601988546682_1_alg».proof.Proof.LibContract0
import proofs.«133948_j60601988546682_1_alg».proof.Proof.Mlp
import Idealize.ShloMosaic.Lib.ValueLayout

noncomputable section

open scoped BigOperators

namespace Cert.KernelIdeal.Body

open Cert.KernelIdeal Cert.KernelIdeal.Gen Idealize.ShloMosaic Idealize.ShloMosaic.ValueIdx

/-! ## Which operand coordinates the two products' dimension numbers pick -/

theorem first_l0 (i : S32768x32.Idx) (q : dot_S32768x64_S64x32_S32768x32_1_0_0_1_n_n.contr.Idx) : (dot_S32768x64_S64x32_S32768x32_1_0_0_1_n_n.lhsIdx i q 0).val = (i 0).val := by
  unfold DotDims.lhsIdx
  rw [dif_neg (show ¬(0 : Fin S32768x64.rank) ∈ dot_S32768x64_S64x32_S32768x32_1_0_0_1_n_n.lhsBatch by decide), dif_pos (show (0 : Fin S32768x64.rank) ∈ dot_S32768x64_S64x32_S32768x32_1_0_0_1_n_n.lhsNonContracting by decide)]
  rfl
theorem first_l1 (i : S32768x32.Idx) (q : dot_S32768x64_S64x32_S32768x32_1_0_0_1_n_n.contr.Idx) : (dot_S32768x64_S64x32_S32768x32_1_0_0_1_n_n.lhsIdx i q 1).val = (q ⟨0, by decide⟩).val :=
  dot_S32768x64_S64x32_S32768x32_1_0_0_1_n_n.lhsIdx_val_of_single rfl i q
theorem first_r0 (i : S32768x32.Idx) (q : dot_S32768x64_S64x32_S32768x32_1_0_0_1_n_n.contr.Idx) : (dot_S32768x64_S64x32_S32768x32_1_0_0_1_n_n.rhsIdx i q 0).val = (q ⟨0, by decide⟩).val :=
  dot_S32768x64_S64x32_S32768x32_1_0_0_1_n_n.rhsIdx_val_of_single rfl i q
theorem first_r1 (i : S32768x32.Idx) (q : dot_S32768x64_S64x32_S32768x32_1_0_0_1_n_n.contr.Idx) : (dot_S32768x64_S64x32_S32768x32_1_0_0_1_n_n.rhsIdx i q 1).val = (i 1).val := by
  unfold DotDims.rhsIdx
  rw [dif_neg (show ¬(1 : Fin S64x32.rank) ∈ dot_S32768x64_S64x32_S32768x32_1_0_0_1_n_n.rhsBatch by decide), dif_pos (show (1 : Fin S64x32.rank) ∈ dot_S32768x64_S64x32_S32768x32_1_0_0_1_n_n.rhsNonContracting by decide)]
  rfl

theorem second_l0 (i : S32768x16.Idx) (q : dot_S32768x32_S32x16_S32768x16_1_0_0_1_n_n.contr.Idx) : (dot_S32768x32_S32x16_S32768x16_1_0_0_1_n_n.lhsIdx i q 0).val = (i 0).val := by
  unfold DotDims.lhsIdx
  rw [dif_neg (show ¬(0 : Fin S32768x32.rank) ∈ dot_S32768x32_S32x16_S32768x16_1_0_0_1_n_n.lhsBatch by decide), dif_pos (show (0 : Fin S32768x32.rank) ∈ dot_S32768x32_S32x16_S32768x16_1_0_0_1_n_n.lhsNonContracting by decide)]
  rfl
theorem second_l1 (i : S32768x16.Idx) (q : dot_S32768x32_S32x16_S32768x16_1_0_0_1_n_n.contr.Idx) : (dot_S32768x32_S32x16_S32768x16_1_0_0_1_n_n.lhsIdx i q 1).val = (q ⟨0, by decide⟩).val :=
  dot_S32768x32_S32x16_S32768x16_1_0_0_1_n_n.lhsIdx_val_of_single rfl i q
theorem second_r0 (i : S32768x16.Idx) (q : dot_S32768x32_S32x16_S32768x16_1_0_0_1_n_n.contr.Idx) : (dot_S32768x32_S32x16_S32768x16_1_0_0_1_n_n.rhsIdx i q 0).val = (q ⟨0, by decide⟩).val :=
  dot_S32768x32_S32x16_S32768x16_1_0_0_1_n_n.rhsIdx_val_of_single rfl i q
theorem second_r1 (i : S32768x16.Idx) (q : dot_S32768x32_S32x16_S32768x16_1_0_0_1_n_n.contr.Idx) : (dot_S32768x32_S32x16_S32768x16_1_0_0_1_n_n.rhsIdx i q 1).val = (i 1).val := by
  unfold DotDims.rhsIdx
  rw [dif_neg (show ¬(1 : Fin S32x16.rank) ∈ dot_S32768x32_S32x16_S32768x16_1_0_0_1_n_n.rhsBatch by decide), dif_pos (show (1 : Fin S32x16.rank) ∈ dot_S32768x32_S32x16_S32768x16_1_0_0_1_n_n.rhsNonContracting by decide)]
  rfl

/-! ## The two products at an entry -/

/-- The first product at `(p, k)`: row `p` of the left operand against column `k` of the right. -/
theorem first_product {φ₁ φ₂ : FTy} (a : FVec Ideal S32768x64 φ₁) (b : FVec Ideal S64x32 φ₂) (p : Fin 32768) (k : Fin 32) :
    matmul dot_S32768x64_S64x32_S32768x32_1_0_0_1_n_n none a b (constant (F := Ideal) S32768x32 .f32 0x00000000#32) (ix2 p k)
      = ∑ j : Fin 64, a (ix2 p j) * b (ix2 j k) :=
  Cert.Contract0.matmul_rows dot_S32768x64_S64x32_S32768x32_1_0_0_1_n_n rfl rfl first_l0 first_l1 first_r0 first_r1 a b p k

/-- The second product at `(p, q)`: row `p` of the left operand against column `q` of the right. -/
theorem second_product {φ₁ φ₂ : FTy} (a : FVec Ideal S32768x32 φ₁) (b : FVec Ideal S32x16 φ₂) (p : Fin 32768) (q : Fin 16) :
    matmul dot_S32768x32_S32x16_S32768x16_1_0_0_1_n_n none a b (constant (F := Ideal) S32768x16 .f32 0x00000000#32) (ix2 p q)
      = ∑ k : Fin 32, a (ix2 p k) * b (ix2 k q) :=
  Cert.Contract0.matmul_rows dot_S32768x32_S32x16_S32768x16_1_0_0_1_n_n rfl rfl second_l0 second_l1 second_r0 second_r1 a b p q

/-! ## The stored value at an entry -/

/-- The value the body stores, at `(p, q)`, is output unit `q` of row `p` of the loaded block — for bias rows that
    hold the bias vectors `b1`, `b2` along their one row. -/
theorem stored_apply (x : Vec Ideal S32768x64 .f32) (w1 : Vec Ideal S64x32 .f32) (r1 : Vec Ideal S1x32 .f32)
    (w2 : Vec Ideal S32x16 .f32) (r2 : Vec Ideal S1x16 .f32)
    (b1 : FVec Ideal ⟨1, ![32]⟩ .f32) (b2 : FVec Ideal ⟨1, ![16]⟩ .f32)
    (h1 : ∀ k : Fin 32, r1 (ix2 (0 : Fin 1) k) = b1 (ix1 k)) (h2 : ∀ q : Fin 16, r2 (ix2 (0 : Fin 1) q) = b2 (ix1 q))
    (p : Fin 32768) (q : Fin 16) :
    k0_pay1 (F := Ideal) x w1 r1 w2 r2 (ix2 p q) = Cert.Mlp.unit x w1 b1 w2 b2 p q := by
  unfold k0_pay1
  rw [addf_apply, second_product, broadcastTo_1b_ab_apply, shapeCast_self r2, h2]
  unfold Cert.Mlp.unit
  refine congrArg (· + b2 (ix1 q)) (Finset.sum_congr rfl fun k _ => ?_)
  rw [truncf_apply, truncf_apply, maximumf_apply, addf_apply, first_product, broadcastTo_1b_ab_apply, shapeCast_self r1, h1,
    broadcast_apply]
  rfl

/-- The stored value against the WHOLE input: when the loaded weight blocks are the weight arrays, the bias rows hold
    the bias vectors, and row `p` of the loaded input block is row `P` of the input array, the stored value at
    `(p, q)` is the perceptron of the whole arrays at `(P, q)` — an output row reads its own input row only. -/
theorem block_entry (x : Vec Ideal S32768x64 .f32) (w1 : Vec Ideal S64x32 .f32) (r1 : Vec Ideal S1x32 .f32)
    (w2 : Vec Ideal S32x16 .f32) (r2 : Vec Ideal S1x16 .f32)
    (X : FVec Ideal S1048576x64 .f32) (W1 : FVec Ideal S64x32 .f32) (b1 : FVec Ideal S32 .f32)
    (W2 : FVec Ideal S32x16 .f32) (b2 : FVec Ideal S16 .f32)
    (hw1 : w1 = W1) (hw2 : w2 = W2)
    (h1 : ∀ k : Fin 32, r1 (ix2 (0 : Fin 1) k) = b1 (ix1 k)) (h2 : ∀ q : Fin 16, r2 (ix2 (0 : Fin 1) q) = b2 (ix1 q))
    (p : Fin 32768) (P : Fin 1048576) (hx : ∀ j : Fin 64, x (ix2 p j) = X (ix2 P j)) (q : Fin 16) :
    k0_pay1 (F := Ideal) x w1 r1 w2 r2 (ix2 p q) = Cert.Mlp.net X W1 b1 W2 b2 (ix2 P q) := by
  subst hw1 hw2
  exact (stored_apply x w1 r1 w2 r2 b1 b2 h1 h2 p q).trans (Cert.Mlp.unit_congr x X w1 b1 w2 b2 p P hx q)

end Cert.KernelIdeal.Body

end
-- ==== Proof.Blocks.lean ====
/-
  From what each grid point writes back to the whole result array. The grid has 32 points; point `t` stages rows
  `32768·t … 32768·t + 32767` of the input and writes back the same rows of the result; the two weight matrices and
  the two bias rows are staged whole at every point (their block index is `(0, 0)` and their block is the array). The
  biases reach the region as `[1, n]` rows: the host reshaped the bias vectors before the call. So what point `t`
  writes back is block `t` of the perceptron of the five ARGUMENT arrays, the 32 blocks cover the result array (row
  `r` lies in block `r / 32768`), and the array ends holding the perceptron.
-/
import proofs.«133948_j60601988546682_1_alg».proof.Proof.Gen.KernelIdeal.Value
import proofs.«133948_j60601988546682_1_alg».proof.Proof.Body
import Idealize.ShloMosaic.Lib.Pipeline.Value
import Idealize.ShloMosaic.Lib.ValueLayout
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-! ## The bias rows as the region finds them -/

/-- The first bias row is the first bias vector laid along a `[1, 32]` row. -/
theorem bias1_row (c : Dev nD) :
    (V m c main_v0 : S1x32.Idx → EReal) = shapeCast S1x32 (m ((c : Thread nD τ).loc main_arg2)) shapeCasts_S32_S1x32 := by
  dsimp only [Gen.V, Gen.hostOps0]; after_results; rfl

/-- The second bias row is the second bias vector laid along a `[1, 16]` row. -/
theorem bias2_row (c : Dev nD) :
    (V m c main_v1 : S1x16.Idx → EReal) = shapeCast S1x16 (m ((c : Thread nD τ).loc main_arg4)) shapeCasts_S16_S1x16 := by
  dsimp only [Gen.V, Gen.hostOps0]; after_results; rfl

/-! ## The index maps over the grid -/

/-- The printed index maps, decided over the 32 points: the input and the result move one block of rows per point,
    every other window stays at block `(0, 0)`. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## What a point writes back -/

/-- WHAT POINT `t` WRITES BACK is block `t` of the perceptron of the five argument arrays. -/
theorem flushed_eq (c : Dev nD) (t : Fin cfg0.N) :
    (dats m 0 c).flushed 5 t = ((cfg0.win 5).blk t).view.read (Elt Ideal)
      (Cert.Mlp.net (m ((c : Thread nD τ).loc main_arg0)) (m ((c : Thread nD τ).loc main_arg1))
        (m ((c : Thread nD τ).loc main_arg2)) (m ((c : Thread nD τ).loc main_arg3)) (m ((c : Thread nD τ).loc main_arg4))) := by
  rw [Cert.KernelIdeal.Value.flushed5]
  unfold Gen.out0_5
  rw [View.canon_unit_zero origin]
  simp only [View.ld_unit_zero (S := S32768x64) origin, View.ld_unit_zero (S := S64x32) origin,
    View.ld_unit_zero (S := S1x32) origin, View.ld_unit_zero (S := S32x16) origin, View.ld_unit_zero (S := S1x16) origin]
  obtain ⟨e00, e01, e10, e11, e20, e21, e30, e31, e40, e41, e50, e51⟩ := index_facts t
  have ht : t.val < 32 := Nat.lt_of_lt_of_eq t.isLt N_0
  funext j
  obtain ⟨p, q, rfl⟩ : ∃ (p : Fin 32768) (q : Fin 16), j = ix2 p q := ⟨j 0, j 1, eq_ix2 j⟩
  have hP : t.val * 32768 + p.val < 1048576 := by have := p.isLt; omega
  show k0_pay1 (F := Ideal) (iblk m c 0 t) (iblk m c 1 t) (iblk m c 2 t) (iblk m c 3 t) (iblk m c 4 t) (ix2 p q)
      = Cert.Mlp.net (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb (ix2 p q))
  have e5 : ((cfg0.win 5).blk t).view.emb (ix2 p q) = ix2 (⟨t.val * 32768 + p.val, hP⟩ : Fin 1048576) q := by
    funext a; apply Fin.ext
    match a with
    | ⟨0, _⟩ => show win0_5.index t (0 : Fin 2) * 32768 + 1 * p.val = t.val * 32768 + p.val; omega
    | ⟨1, _⟩ => show win0_5.index t (1 : Fin 2) * 16 + 1 * q.val = q.val; omega
  rw [e5]
  refine Cert.KernelIdeal.Body.block_entry (iblk m c 0 t) (iblk m c 1 t) (iblk m c 2 t) (iblk m c 3 t) (iblk m c 4 t)
    (m ((c : Thread nD τ).loc main_arg0)) (m ((c : Thread nD τ).loc main_arg1)) (m ((c : Thread nD τ).loc main_arg2)) (m ((c : Thread nD τ).loc main_arg3)) (m ((c : Thread nD τ).loc main_arg4)) ?_ ?_ ?_ ?_ p ⟨t.val * 32768 + p.val, hP⟩ ?_ q
  · -- the first weight matrix is staged whole
    funext y
    show V m c main_arg1 (((cfg0.win 1).blk t).view.emb y) = (m ((c : Thread nD τ).loc main_arg1)) y
    rw [V_main_arg1]
    refine congrArg _ (funext fun a => Fin.ext ?_)
    match a with
    | ⟨0, _⟩ => show win0_1.index t (0 : Fin 2) * 64 + 1 * (y 0).val = (y 0).val; omega
    | ⟨1, _⟩ => show win0_1.index t (1 : Fin 2) * 32 + 1 * (y 1).val = (y 1).val; omega
  · -- the second weight matrix is staged whole
    funext y
    show V m c main_arg3 (((cfg0.win 3).blk t).view.emb y) = (m ((c : Thread nD τ).loc main_arg3)) y
    rw [V_main_arg3]
    refine congrArg _ (funext fun a => Fin.ext ?_)
    match a with
    | ⟨0, _⟩ => show win0_3.index t (0 : Fin 2) * 32 + 1 * (y 0).val = (y 0).val; omega
    | ⟨1, _⟩ => show win0_3.index t (1 : Fin 2) * 16 + 1 * (y 1).val = (y 1).val; omega
  · -- the first bias row holds the first bias vector
    intro k
    show V m c main_v0 (((cfg0.win 2).blk t).view.emb (ix2 (0 : Fin 1) k)) = (m ((c : Thread nD τ).loc main_arg2)) (ix1 k)
    have e : ((cfg0.win 2).blk t).view.emb (ix2 (0 : Fin 1) k) = ix2 (0 : Fin 1) k := funext fun a => Fin.ext (by
      match a with
      | ⟨0, _⟩ => show win0_2.index t (0 : Fin 2) * 1 + 1 * 0 = 0; omega
      | ⟨1, _⟩ => show win0_2.index t (1 : Fin 2) * 32 + 1 * k.val = k.val; omega)
    rw [e, bias1_row, shapeCast_a_1a_apply]
  · -- the second bias row holds the second bias vector
    intro k
    show V m c main_v1 (((cfg0.win 4).blk t).view.emb (ix2 (0 : Fin 1) k)) = (m ((c : Thread nD τ).loc main_arg4)) (ix1 k)
    have e : ((cfg0.win 4).blk t).view.emb (ix2 (0 : Fin 1) k) = ix2 (0 : Fin 1) k := funext fun a => Fin.ext (by
      match a with
      | ⟨0, _⟩ => show win0_4.index t (0 : Fin 2) * 1 + 1 * 0 = 0; omega
      | ⟨1, _⟩ => show win0_4.index t (1 : Fin 2) * 16 + 1 * k.val = k.val; omega)
    rw [e, bias2_row, shapeCast_a_1a_apply]
  · -- row p of the staged input block is row 32768·t + p of the input
    intro j
    show V m c main_arg0 (((cfg0.win 0).blk t).view.emb (ix2 p j)) = (m ((c : Thread nD τ).loc main_arg0)) (ix2 (⟨t.val * 32768 + p.val, hP⟩ : Fin 1048576) j)
    rw [V_main_arg0]
    refine congrArg _ (funext fun a => Fin.ext ?_)
    match a with
    | ⟨0, _⟩ => show win0_0.index t (0 : Fin 2) * 32768 + 1 * p.val = t.val * 32768 + p.val; omega
    | ⟨1, _⟩ => show win0_0.index t (1 : Fin 2) * 64 + 1 * j.val = j.val; omega

/-! ## The blocks cover the result -/

/-- An index of the result is in point `t`'s block iff each coordinate is in the block's range on its axis. -/
theorem mem_blk (t : Fin cfg0.N) (i : S1048576x16.Idx) :
    i ∈ ((cfg0.win 5).blk t).view.set ↔ ∀ a : Fin 2, win0_5.index t a * S32768x16.size a ≤ (i a).val
      ∧ (i a).val < win0_5.index t a * S32768x16.size a + S32768x16.size a := by
  show i ∈ ((View.whole main_v2).slice (win0_5.rect t)).set ↔ _
  rw [View.set_slice_whole, Rect.mem_set_unit]
  exact Iff.rfl

/-- Every index of the result lies in the block of the point its row falls in. -/
theorem cover (i : S1048576x16.Idx) :
    ∃ t : Fin cfg0.N, (cfg0.win 5).flush t = true ∧ i ∈ ((cfg0.win 5).blk t).view.set := by
  have hi0 : (i 0).val < 1048576 := (i 0).isLt
  have hi1 : (i 1).val < 16 := (i 1).isLt
  have hN : (i 0).val / 32768 < cfg0.N := Nat.lt_of_lt_of_eq (by omega : (i 0).val / 32768 < 32) N_0.symm
  obtain ⟨-, -, -, -, -, -, -, -, -, -, e50, e51⟩ := index_facts ⟨(i 0).val / 32768, hN⟩
  have e50' : win0_5.index ⟨(i 0).val / 32768, hN⟩ (0 : Fin 2) = (i 0).val / 32768 := e50
  refine ⟨⟨(i 0).val / 32768, hN⟩, flush0_5 _, ?_⟩
  rw [mem_blk]
  intro a
  match a with
  | ⟨0, _⟩ =>
    show win0_5.index ⟨(i 0).val / 32768, hN⟩ (0 : Fin 2) * 32768 ≤ (i 0).val
      ∧ (i 0).val < win0_5.index ⟨(i 0).val / 32768, hN⟩ (0 : Fin 2) * 32768 + 32768
    omega
  | ⟨1, _⟩ =>
    show win0_5.index ⟨(i 0).val / 32768, hN⟩ (1 : Fin 2) * 16 ≤ (i 1).val
      ∧ (i 1).val < win0_5.index ⟨(i 0).val / 32768, hN⟩ (1 : Fin 2) * 16 + 16
    omega

/-! ## The result array, and the run -/

/-- THE RESULT ARRAY after the run is the perceptron of the five argument arrays. -/
theorem final (c : Dev nD) :
    (dats m 0 c).arrAt 5 cfg0.N = Cert.Mlp.net (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed_eq m c t) cover

/-- The kernel's run: every weakly fair execution terminates with the result at the perceptron of the arguments, the
    arguments unchanged. -/
theorem run : θ_run defs (onTc (τ := τ) (main (F := Ideal))) ⟨m, fun _ => 0, ρ⟩ fun r => ∀ c : Dev nD,
      r.2.mem ((c : Thread nD τ).loc main_v2) = Cert.Mlp.net (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Blocks

end
-- ==== Proof.RefNet.lean ====
/-
  The reference computes the perceptron. Read one operation at a time at an entry `(p, q)`: the host's first product
  is the sum over the 64 input features, its first bias (a vector viewed as a `[1, 32]` row and repeated down all rows)
  is the bias at the hidden unit, the maximum with the broadcast zero constant is the cut-off, the second product is
  the sum over the 32 hidden units, and the second bias likewise. That is `Mlp.net` of the five arguments, literally:
  the two sides are the same sums in the same order.
-/
import proofs.«133948_j60601988546682_1_alg».proof.Proof.Gen.ReferenceIdeal.Read
import proofs.«133948_j60601988546682_1_alg».proof.Proof.Mlp

noncomputable section

open scoped BigOperators

namespace Cert.ReferenceIdeal.RefNet

open Cert.ReferenceIdeal Cert.ReferenceIdeal.Read Idealize.ShloMosaic Idealize.ShloMosaic.ValueIdx

/-! ## The operations' index maps, at an entry given by its coordinates -/

theorem left_hidden (p : Fin 1048576) (k : Fin 32) (j : Fin 64) : lidx_main_v0 (ix2 p k) j = ix2 p j :=
  funext fun a => Fin.ext (by match a with | ⟨0, _⟩ => rfl | ⟨1, _⟩ => rfl)
theorem right_hidden (p : Fin 1048576) (k : Fin 32) (j : Fin 64) : ridx_main_v0 (ix2 p k) j = ix2 j k :=
  funext fun a => Fin.ext (by match a with | ⟨0, _⟩ => rfl | ⟨1, _⟩ => rfl)
theorem bias_hidden (p : Fin 1048576) (k : Fin 32) : idx_main_v1 (idx_main_v2 (ix2 p k)) = ix1 k :=
  funext fun a => Fin.ext (by match a with | ⟨0, _⟩ => rfl)
theorem left_out (p : Fin 1048576) (q : Fin 16) (k : Fin 32) : lidx_main_v5 (ix2 p q) k = ix2 p k :=
  funext fun a => Fin.ext (by match a with | ⟨0, _⟩ => rfl | ⟨1, _⟩ => rfl)
theorem right_out (p : Fin 1048576) (q : Fin 16) (k : Fin 32) : ridx_main_v5 (ix2 p q) k = ix2 k q :=
  funext fun a => Fin.ext (by match a with | ⟨0, _⟩ => rfl | ⟨1, _⟩ => rfl)
theorem bias_out (p : Fin 1048576) (q : Fin 16) : idx_main_v6 (idx_main_v7 (ix2 p q)) = ix1 q :=
  funext fun a => Fin.ext (by match a with | ⟨0, _⟩ => rfl)

/-! ## The hidden layer, then the whole result -/

/-- The reference's hidden layer at `(p, k)` is the perceptron's hidden unit `k` of row `p`. -/
theorem hidden_eq (x : FVec Ideal S1048576x64 .f32) (w1 : FVec Ideal S64x32 .f32) (b1 : FVec Ideal S32 .f32)
    (p : Fin 1048576) (k : Fin 32) :
    val_main_v4 (F := Ideal) x w1 b1 (ix2 p k) = Cert.Mlp.hidden x w1 b1 p k := by
  rw [val_main_v4_apply, val_main_v3_apply, val_main_v0_apply, val_main_v2_apply, val_main_v1_apply,
    val_main_call0_v0_apply, val_main_call0_cst_apply, bias_hidden]
  unfold Cert.Mlp.hidden
  simp only [left_hidden, right_hidden]
  rfl

/-- The reference's result is the perceptron of its five arguments. -/
theorem result_eq (x : FVec Ideal S1048576x64 .f32) (w1 : FVec Ideal S64x32 .f32) (b1 : FVec Ideal S32 .f32)
    (w2 : FVec Ideal S32x16 .f32) (b2 : FVec Ideal S16 .f32) :
    val_main_v8 (F := Ideal) x w1 b1 w2 b2 = Cert.Mlp.net x w1 b1 w2 b2 := by
  funext i
  obtain ⟨p, q, rfl⟩ : ∃ (p : Fin 1048576) (q : Fin 16), i = ix2 p q := ⟨i 0, i 1, eq_ix2 i⟩
  rw [Cert.Mlp.net_ix2, val_main_v8_apply, val_main_v5_apply, val_main_v7_apply, val_main_v6_apply, bias_out]
  unfold Cert.Mlp.unit
  simp only [left_out, right_out, hidden_eq]
  rfl

end Cert.ReferenceIdeal.RefNet

end
-- ==== Proof.lean ====
/-
  A two-layer perceptron applied to each of 1048576 rows: `y = max(x · W1 + b1, 0) · W2 + b2` with `x : [1048576, 64]`,
  `W1 : [64, 32]`, `b1 : [32]`, `W2 : [32, 16]`, `b2 : [16]`.

  The kernel walks a grid of 32 points, each staging 32768 rows of the input with the weights and the biases (the
  biases reshaped by the host to `[1, n]` rows) and writing back 32768 rows of the result. Its body relabels the
  operands of both matrix products to a narrower float format, which over the extended reals is the identity, and
  accumulates each product into a zero accumulator. The reference is the same two products, bias additions and
  cut-off as whole-array host operations.

  Over the extended reals both are ONE function of the five arguments (`Mlp.net`): every product is the plain finite sum
  over its contracted axis, in the same order on both sides, the bias is added after the sum on both sides, and the
  cut-off is the maximum with the same zero word. No algebraic law joins the two sides beyond reading each operation
  at an entry, so the finiteness of the inputs is never used.

  The pieces: `Mlp` (the function), `Body` (the value one run of the kernel body stores, at an entry), `Blocks` (what
  each grid point writes back, the 32 blocks covering the result, the kernel's run), `RefNet` (the reference's term is
  the function). The three frames are the generated ones (the reference's is its run with the result dropped), and the
  idealized kernel is the kernel's own text read over the extended reals: no rewrite was applied, so that conjunct is
  `True`.
-/
import proofs.«133948_j60601988546682_1_alg».proof.Defs
import proofs.«133948_j60601988546682_1_alg».proof.Proof.Gen.Kernel
import proofs.«133948_j60601988546682_1_alg».proof.Proof.Gen.Kernel.Skeleton
import proofs.«133948_j60601988546682_1_alg».proof.Proof.Gen.Kernel.Launch
import proofs.«133948_j60601988546682_1_alg».proof.Proof.Gen.Kernel.Points
import proofs.«133948_j60601988546682_1_alg».proof.Proof.Gen.Kernel.Frame
import proofs.«133948_j60601988546682_1_alg».proof.Proof.Gen.KernelIdeal
import proofs.«133948_j60601988546682_1_alg».proof.Proof.Gen.KernelIdeal.Skeleton
import proofs.«133948_j60601988546682_1_alg».proof.Proof.Gen.KernelIdeal.Launch
import proofs.«133948_j60601988546682_1_alg».proof.Proof.Gen.KernelIdeal.Points
import proofs.«133948_j60601988546682_1_alg».proof.Proof.Gen.KernelIdeal.Frame
import proofs.«133948_j60601988546682_1_alg».proof.Proof.Gen.ReferenceIdeal
import proofs.«133948_j60601988546682_1_alg».proof.Proof.Gen.Pre_finite_inputs
import proofs.«133948_j60601988546682_1_alg».proof.Proof.Gen.KernelIdeal.Value
import proofs.«133948_j60601988546682_1_alg».proof.Proof.Gen.ReferenceIdeal.Run
import proofs.«133948_j60601988546682_1_alg».proof.Proof.Gen.ReferenceIdeal.Read
import proofs.«133948_j60601988546682_1_alg».proof.Proof.Mlp
import proofs.«133948_j60601988546682_1_alg».proof.Proof.Body
import proofs.«133948_j60601988546682_1_alg».proof.Proof.Blocks
import proofs.«133948_j60601988546682_1_alg».proof.Proof.RefNet
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array and the reference's both end at the
    perceptron of those arguments. -/
theorem algebraic : Cert.algebraic_KernelIdeal_ReferenceIdeal := by
  intro m ρ m' ρ' _ hagree
  refine ⟨fun c => Cert.Mlp.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefNet.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
